-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x128 : Shape := ⟨2, ![512, 128]⟩
abbrev S4096x128 : Shape := ⟨2, ![4096, 128]⟩
abbrev S512x1 : Shape := ⟨2, ![512, 1]⟩
abbrev S1x4096 : Shape := ⟨2, ![1, 4096]⟩
abbrev S512x4096 : Shape := ⟨2, ![512, 4096]⟩

abbrev nBuf : Space → Nat
  | .hbm => 12
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S512x1, .f32⟩
  | .local _ .vmem, ⟨5, _⟩ => ⟨S512x1, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S8192x128.size a
  hwx0_1 : ∀ i : grid0.Coords, EltTy.bits .f32 = 32 ∨ (Rect.block (s := S8192x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x8192.size a
  hwx0_3 : ∀ i : grid0.Coords, EltTy.bits .f32 = 32 ∨ (Rect.block (s := S1x8192) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x8192.size a
  hwx0_4 : ∀ i : grid0.Coords, EltTy.bits .f32 = 32 ∨ (Rect.block (s := S8192x8192) S512x4096.size (cc0_transform_4 i) (hinb0_4 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩
abbrev S8192x8192 : Shape := ⟨2, ![8192, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  transposes_S8192x128_S128x8192_1_0 : S8192x128.Transposes [1, 0] S128x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RbfSpec.lean ====
/-
  The Gaussian (RBF) kernel matrix of two sets of 8192 points in 128 dimensions, as ONE function of the two point arrays.

  For rows `p` of `x` and `q` of `y`:  ‖x_p − y_q‖² = ‖x_p‖² − 2 ⟨x_p, y_q⟩ + ‖y_q‖², and the matrix entry is
  exp(γ' · ‖x_p − y_q‖²) with γ' the (negative) single-precision constant both programs spell.  Everything is read on the
  extended reals; the grouping `(‖x_p‖² − 2 ⟨x_p, y_q⟩) + ‖y_q‖²` is the one both programs use, so no law beyond
  re-indexing sums is needed to join them, and finiteness of the inputs is never used.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- A set of 8192 points with 128 coordinates each. -/
abbrev Pts : Shape := ⟨2, ![8192, 128]⟩
/-- The 8192 × 8192 matrix of pairs. -/
abbrev Pairs : Shape := ⟨2, ![8192, 8192]⟩

/-- The squared norm of point `r`: the sum of the squares of its coordinates, started from the zero word as a float sum is. -/
def sqNorm (x : Pts.Idx → EReal) (r : Fin 8192) : EReal :=
  Ideal.ofBits .f32 0x00000000#32 + ∑ k : Fin 128, x (ix2 r k) * x (ix2 r k)

/-- The inner product of point `p` of `x` with point `q` of `y`. -/
def inner (x y : Pts.Idx → EReal) (p q : Fin 8192) : EReal :=
  ∑ k : Fin 128, x (ix2 p k) * y (ix2 q k)

/-- The scale inside the exponential, −1/(2σ²) rounded to single precision: the same word in both programs. -/
abbrev negGamma : EReal := Ideal.ofBits .f32 0xBBA3D70A#32
/-- The factor 2 of the cross term. -/
abbrev two : EReal := Ideal.ofBits .f32 0x40000000#32

/-- Entry `(p, q)`: exp(γ' · ((‖x_p‖² − 2 ⟨x_p, y_q⟩) + ‖y_q‖²)). -/
def entry (x y : Pts.Idx → EReal) (p q : Fin 8192) : EReal :=
  Ideal.exp (negGamma * ((sqNorm x p - two * inner x y p q) + sqNorm y q))

/-- The whole matrix. -/
def rbf (x y : Pts.Idx → EReal) : Pairs.Idx → EReal := fun i => entry x y (i 0) (i 1)

theorem rbf_ix2 (x y : Pts.Idx → EReal) (p q : Fin 8192) : rbf x y (ix2 p q) = entry x y p q := rfl

end Cert.Rbf

end
-- ==== Proof.RefIsRbf.lean ====
/-
  The reference's last stage is the Gaussian-kernel matrix `Rbf.rbf` of its two arguments.

  Read one operation at a time, the reference forms the column of squared norms of `x` (a row sum of squares, kept as an
  [8192, 1] column), the row of squared norms of `y` (the same, transposed to [1, 8192]), the matrix of inner products
  `x · yᵀ` (a transposition of `y` followed by a product contracting the 128 coordinates), then
  exp(γ' · ((‖x_p‖² − 2 ⟨x_p, y_q⟩) + ‖y_q‖²)) entry by entry.  Each index map composed along the way lands on
  `(p, k)` of `x` or `(q, k)` of `y`.
-/
import proofs.«163347_j74474732913139_2_alg».proof.Proof.Gen.ReferenceIdeal.Read
import proofs.«163347_j74474732913139_2_alg».proof.Proof.RbfSpec

noncomputable section

open scoped BigOperators

namespace Cert.ReferenceIdeal.RefValue

open Cert.ReferenceIdeal Cert.ReferenceIdeal.Gen Cert.ReferenceIdeal.Read
open Idealize.ShloMosaic Idealize.ShloMosaic.ValueIdx

variable (x y : (⟨S8192x128, .f32⟩ : BufTy).Contents (Elt Ideal)) (i : S8192x8192.Idx)

/-- The column of norms, broadcast along a row and read at `i`, sums over row `i 0` of `x`. -/
theorem normx_idx (k : Fin 128) : idx_main_v1 (idx_main_v2 (idx_main_v11 i)) k = ix2 (i 0) k :=
  funext fun a => Fin.ext (by match a with | ⟨0, _⟩ => rfl | ⟨1, _⟩ => rfl)

/-- The row of norms, broadcast down a column and read at `i`, sums over row `i 1` of `y`. -/
theorem normy_idx (k : Fin 128) : idx_main_v4 (idx_main_v5 (idx_main_v6 (idx_main_v13 i))) k = ix2 (i 1) k :=
  funext fun a => Fin.ext (by match a with | ⟨0, _⟩ => rfl | ⟨1, _⟩ => rfl)

/-- The product's left operand at `(i, k)` is `x` at `(i 0, k)`. -/
theorem crossl_idx (k : Fin 128) : lidx_main_v8 i k = ix2 (i 0) k :=
  funext fun a => Fin.ext (by match a with | ⟨0, _⟩ => rfl | ⟨1, _⟩ => rfl)

/-- The product's right operand, the transposed `y`, at `(i, k)` is `y` at `(i 1, k)`. -/
theorem crossr_idx (k : Fin 128) : idx_main_v7 (ridx_main_v8 i k) = ix2 (i 1) k :=
  funext fun a => Fin.ext (by match a with | ⟨0, _⟩ => rfl | ⟨1, _⟩ => rfl)

/-- The reference's result, as a function of its arguments, is the Gaussian-kernel matrix. -/
theorem result_eq : val_main_v17 (F := Ideal) x y = Cert.Rbf.rbf x y := by
  funext i
  rw [val_main_v17_apply, val_main_v16_apply, val_main_v15_apply, val_main_cst_2_apply, val_main_v14_apply,
    val_main_v12_apply, val_main_v11_apply, val_main_v2_apply, val_main_v1_apply, val_main_v10_apply, val_main_v9_apply,
    val_main_cst_1_apply, val_main_v8_apply, val_main_v13_apply, val_main_v6_apply, val_main_v5_apply, val_main_v4_apply]
  simp only [val_main_v7_apply, val_main_v0_apply, val_main_v3_apply, val_main_cst_apply, val_main_cst_0_apply,
    normx_idx, normy_idx, crossl_idx, crossr_idx]
  rfl

end Cert.ReferenceIdeal.RefValue

end
-- ==== Proof.HostNorms.lean ====
/-
  The two arrays the kernel's host code hands to the region besides the points themselves: the COLUMN of squared norms of `x`
  (a row sum of squares kept as an [8192, 1] array) and the ROW of squared norms of `y` (the same column, transposed to
  [1, 8192]).  Read at an index, each is the squared norm of one point.
-/
import proofs.«163347_j74474732913139_2_alg».proof.Proof.Gen.KernelIdeal.Frame
import proofs.«163347_j74474732913139_2_alg».proof.Proof.RbfSpec
import Idealize.ShloMosaic.Lib.Pipeline.Value
import Idealize.ShloMosaic.Lib.ValueIdx
import Idealize.ShloMosaic.PureOps.Ideal.Laws
import Idealize.ShloMosaic.Lib.StableHlo.Run

noncomputable section

open scoped BigOperators

namespace Cert.KernelIdeal.HostNorms

open Cert.KernelIdeal Cert.KernelIdeal.Gen Idealize.ShloMosaic Idealize.ShloMosaic.TcCoe Idealize.SL.Sem
open Idealize.ShloMosaic.ValueIdx Idealize.ShloMosaic.StableHlo

/-- The column of squared norms, as the host operations build it: square, sum each row from zero, keep a unit axis. -/
def normCol (x : S8192x128.Idx → EReal) : S8192x1.Idx → EReal :=
  broadcastInDim S8192x1 ![0] bcast_S8192_S8192x1_0
    (Host.reduceAdd (F := Ideal) (mulf x x) (constant S_ .f32 0x00000000#32) reducesTo_S8192x128_S8192_d1 h_S_)

/-- Entry `r` of the column is the squared norm of point `r`. -/
theorem normCol_apply (x : S8192x128.Idx → EReal) (r : Fin 8192) (u : Fin 1) : normCol x (ix2 r u) = Cert.Rbf.sqNorm x r := by
  unfold normCol
  rw [broadcastInDim_apply _ bcast_S8192_S8192x1_0 _ (ix2 r u) (ix1 r) (fun a => match a with
    | ⟨0, _⟩ => by show r.val = if (8192 : Nat) = 1 then 0 else r.val; rw [if_neg (by decide)])]
  simp only [Host.reduceAdd, Ideal.hostReduceAdd_def]
  rw [Ideal.hostReduceAdd_single reducesTo_S8192x128_S8192_d1 (by decide)]
  unfold Cert.Rbf.sqNorm
  refine congrArg (_ + ·) (Finset.sum_congr rfl fun k _ => ?_)
  exact congrArg (mulf (F := Ideal) x x) (funext fun a => Fin.ext (by match a with | ⟨0, _⟩ => rfl | ⟨1, _⟩ => rfl))

/-- The row of squared norms: the column, transposed. -/
def normRow (y : S8192x128.Idx → EReal) : S1x8192.Idx → EReal :=
  transpose S1x8192 [1, 0] (normCol y) transposes_S8192x1_S1x8192_1_0

/-- Entry `q` of the row is the squared norm of point `q`. -/
theorem normRow_apply (y : S8192x128.Idx → EReal) (u : Fin 1) (q : Fin 8192) : normRow y (ix2 u q) = Cert.Rbf.sqNorm y q := by
  unfold normRow
  rw [transpose_apply [1, 0] (normCol y) transposes_S8192x1_S1x8192_1_0 (ix2 u q) (ix2 q u) (fun b => match b with
    | ⟨0, _⟩ => rfl
    | ⟨1, _⟩ => rfl)]
  exact normCol_apply y q u

variable (m : (ℓ : Loc nD τ sig) → Buf (Elt Ideal) ℓ)

/-- When the region is entered, the third operand's array is the column of squared norms of the first argument. -/
theorem entry_normx (c : Dev nD) :
    (V m c main_v2 : S8192x1.Idx → EReal) = normCol (m ((c : Thread nD τ).loc main_arg0)) := by
  dsimp only [Gen.V, Gen.hostOps0]; after_results; rfl

/-- When the region is entered, the fourth operand's array is the row of squared norms of the second argument. -/
theorem entry_normy (c : Dev nD) :
    (V m c main_v6 : S1x8192.Idx → EReal) = normRow (m ((c : Thread nD τ).loc main_arg1)) := by
  dsimp only [Gen.V, Gen.hostOps0]; after_results; rfl

end Cert.KernelIdeal.HostNorms

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmulNT.lean ====
/-
  A matrix product of an `[M, K]` array by an `[N, K]` array, contracting the LAST axis of both, read at `(p, q)`:
  the sum over `k` of the left operand at `(p, k)` times the right operand at `(q, k)` — the inner product of row `p`
  of the left operand and row `q` of the right.
-/
import Idealize.ShloMosaic.PureOps.Ideal
import Idealize.ShloMosaic.PureOps.Ideal.Laws
import Idealize.ShloMosaic.Lib.ValueIdx
import proofs.«163347_j74474732913139_2_alg».proof.Proof.LibDotSum

noncomputable section

open scoped BigOperators

namespace Idealize.ShloMosaic.LibMatmulNT

open Idealize.ShloMosaic Idealize.ShloMosaic.ValueIdx

/-- The contraction sum of an `[M, K] × [N, K]` product at `(p, q)`, over the contracted coordinate.  The two facts
    about the free axes (`hl0`, `hr0`: the left operand's row is the result's row, the right operand's row the result's
    column) are read off a program's literal dimension numbers. -/
theorem contr_sum {M K N : Nat} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (x : (⟨2, ![M, K]⟩ : Shape).Idx → EReal) (y : (⟨2, ![N, K]⟩ : Shape).Idx → EReal) (p : Fin M) (q : Fin N) :
    ∑ c : D.contr.Idx, x (D.lhsIdx (ix2 p q) c) * y (D.rhsIdx (ix2 p q) c) = ∑ k : Fin K, x (ix2 p k) * y (ix2 q k) := by
  refine LibDotSum.sum_single D K hr hs x y (ix2 p q) (fun k => x (ix2 p k)) (fun k => y (ix2 q k)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k

/-- A kernel's matrix product into a zero accumulator, at `(p, q)`. -/
theorem matmul_zero_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) :=
  (Ideal.matmul_constant_zero_apply D prec x y (ix2 p q)).trans (contr_sum D hr hs hlc hrc hl0 hr0 x y p q)

/-- The host's `dot_general` of the same shape, at `(p, q)`. -/
theorem dotGeneral_apply {M K N : Nat} {φ₁ φ₂ : FTy} (D : DotDims ⟨2, ![M, K]⟩ ⟨2, ![N, K]⟩ ⟨2, ![M, N]⟩) (hr : D.contr.rank = 1)
    (hs : D.contr.size ⟨0, by omega⟩ = K) (hlc : D.lhsContracting = [1]) (hrc : D.rhsContracting = [1])
    (hl0 : ∀ j q, (D.lhsIdx j q 0).val = (j 0).val) (hr0 : ∀ j q, (D.rhsIdx j q 0).val = (j 1).val)
    (prec : Option ContractPrecision) (x : FVec Ideal ⟨2, ![M, K]⟩ φ₁) (y : FVec Ideal ⟨2, ![N, K]⟩ φ₂) (p : Fin M) (q : Fin N) :
    Host.dotGeneral D prec x y (ix2 p q) = ∑ k : Fin K, x (ix2 p k) * y (ix2 q k) := by
  simp only [Host.dotGeneral]
  rw [Ideal.dotGeneral_apply]
  exact contr_sum D hr hs hlc hrc hl0 hr0 x y p q

end Idealize.ShloMosaic.LibMatmulNT

end
-- ==== Proof.BodyEntry.lean ====
/-
  What the kernel body stores at entry `(p, q)` of its 512 × 4096 output block, as a function of the four blocks it loads:
  the 512 points of `x`, the 4096 points of `y`, the 512 × 1 column of squared norms and the 1 × 4096 row of squared norms.

  The cross term is a matrix product contracting the 128 coordinates of both operands into a zero accumulator — the inner
  product of row `p` of the first block with row `q` of the second; the narrowing of its operands to a shorter float
  format is the identity on extended reals.  The column is broadcast along the row and the row down the column, so at
  `(p, q)` they read their entries `p` and `q`.
-/
import proofs.«163347_j74474732913139_2_alg».proof.Proof.Gen.KernelIdeal.Skeleton
import proofs.«163347_j74474732913139_2_alg».proof.Proof.RbfSpec
import proofs.«163347_j74474732913139_2_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.BodyEntry

open Cert.KernelIdeal Cert.KernelIdeal.Gen Idealize.ShloMosaic Idealize.ShloMosaic.ValueIdx

/-- The product's left operand keeps the result's row on its free axis. -/
theorem lhs_row (j : S512x4096.Idx) (c : dot_S512x128_S4096x128_S512x4096_1_1_0_0_n_n.contr.Idx) :
    (dot_S512x128_S4096x128_S512x4096_1_1_0_0_n_n.lhsIdx j c 0).val = (j 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl

/-- The product's right operand keeps the result's column on its free axis. -/
theorem rhs_row (j : S512x4096.Idx) (c : dot_S512x128_S4096x128_S512x4096_1_1_0_0_n_n.contr.Idx) :
    (dot_S512x128_S4096x128_S512x4096_1_1_0_0_n_n.rhsIdx j c 0).val = (j 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl

/-- The cross term at `(p, q)`: the inner product of point `p` of the first block with point `q` of the second. -/
theorem cross_apply (v0 : Vec Ideal S512x128 .f32) (v1 : Vec Ideal S4096x128 .f32) (p : Fin 512) (q : Fin 4096) :
    matmul dot_S512x128_S4096x128_S512x4096_1_1_0_0_n_n none (truncf .bf16 v0 bitsLt_bf16_f32) (truncf .bf16 v1 bitsLt_bf16_f32)
        (constant (F := Ideal) S512x4096 .f32 0x00000000#32) (ix2 p q)
      = ∑ k : Fin 128, v0 (ix2 p k) * v1 (ix2 q k) :=
  LibMatmulNT.matmul_zero_apply dot_S512x128_S4096x128_S512x4096_1_1_0_0_n_n rfl rfl rfl rfl lhs_row rhs_row none
    (truncf .bf16 v0 bitsLt_bf16_f32) (truncf .bf16 v1 bitsLt_bf16_f32) p q

/-- The column of norms, broadcast along the row, reads entry `p` at `(p, q)`. -/
theorem col_apply (v2 : Vec Ideal S512x1 .f32) (p : Fin 512) (q : Fin 4096) :
    broadcastTo S512x4096 (shapeCast S512x1 v2 shapeCasts_S512x1_S512x1) broadcasts_S512x1_S512x4096 (ix2 p q) = v2 (ix2 p 0) := by
  rw [shapeCast_self]
  exact broadcastTo_apply v2 broadcasts_S512x1_S512x4096 (ix2 p q) (ix2 p 0) (fun a => match a with
    | ⟨0, _⟩ => by show p.val = if (512 : Nat) = 1 then 0 else p.val; rw [if_neg (by decide)]
    | ⟨1, _⟩ => by show (0 : Nat) = if (1 : Nat) = 1 then 0 else q.val; rw [if_pos rfl])

/-- The row of norms, broadcast down the column, reads entry `q` at `(p, q)`. -/
theorem row_apply (v4 : Vec Ideal S1x4096 .f32) (p : Fin 512) (q : Fin 4096) :
    broadcastTo S512x4096 (shapeCast S1x4096 v4 shapeCasts_S1x4096_S1x4096) broadcasts_S1x4096_S512x4096 (ix2 p q) = v4 (ix2 0 q) := by
  rw [shapeCast_self]
  exact broadcastTo_apply v4 broadcasts_S1x4096_S512x4096 (ix2 p q) (ix2 0 q) (fun a => match a with
    | ⟨0, _⟩ => by show (0 : Nat) = if (1 : Nat) = 1 then 0 else p.val; rw [if_pos rfl]
    | ⟨1, _⟩ => by show q.val = if (4096 : Nat) = 1 then 0 else q.val; rw [if_neg (by decide)])

/-- THE STORED VALUE at `(p, q)`: exp(γ' · ((n₁ p − 2 ⟨x_p, y_q⟩) + n₂ q)) of the loaded blocks. -/
theorem stored_apply (v0 : Vec Ideal S512x128 .f32) (v1 : Vec Ideal S4096x128 .f32) (v2 : Vec Ideal S512x1 .f32)
    (v4 : Vec Ideal S1x4096 .f32) (p : Fin 512) (q : Fin 4096) :
    k0_pay1 (F := Ideal) v0 v1 v2 v4 (ix2 p q)
      = Ideal.exp (Cert.Rbf.negGamma * ((v2 (ix2 p 0) - Cert.Rbf.two * ∑ k : Fin 128, v0 (ix2 p k) * v1 (ix2 q k)) + v4 (ix2 0 q))) := by
  unfold k0_pay1
  show Ideal.exp (Ideal.ofBits .f32 0xBBA3D70A#32 *
      ((broadcastTo S512x4096 (shapeCast S512x1 v2 shapeCasts_S512x1_S512x1) broadcasts_S512x1_S512x4096 (ix2 p q)
          - Ideal.ofBits .f32 0x40000000#32 *
            matmul dot_S512x128_S4096x128_S512x4096_1_1_0_0_n_n none (truncf .bf16 v0 bitsLt_bf16_f32) (truncf .bf16 v1 bitsLt_bf16_f32)
              (constant (F := Ideal) S512x4096 .f32 0x00000000#32) (ix2 p q))
        + broadcastTo S512x4096 (shapeCast S1x4096 v4 shapeCasts_S1x4096_S1x4096) broadcasts_S1x4096_S512x4096 (ix2 p q))) = _
  rw [col_apply, cross_apply, row_apply]

end Cert.KernelIdeal.BodyEntry

end
-- ==== Proof.BlocksToArray.lean ====
/-
  From blocks to the whole matrix.

  The grid has 16 × 2 points; point `t` with block coordinates `(b₀, b₁)` computes the 512 × 4096 block of the result whose
  rows are `512 b₀ …` and whose columns are `4096 b₁ …`.  It reads the 512 points of `x` with those row numbers, the 4096
  points of `y` with those column numbers, and the matching pieces of the column and of the row of squared norms.  So entry
  `(p, q)` of its block is entry `(512 b₀ + p, 4096 b₁ + q)` of the Gaussian-kernel matrix; the 32 blocks tile the matrix,
  hence the array the region leaves is that matrix.
-/
import proofs.«163347_j74474732913139_2_alg».proof.Proof.Gen.KernelIdeal.Value
import proofs.«163347_j74474732913139_2_alg».proof.Proof.RbfSpec
import proofs.«163347_j74474732913139_2_alg».proof.Proof.HostNorms
import proofs.«163347_j74474732913139_2_alg».proof.Proof.BodyEntry

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every load and the store of the body go through the rectangle at offset zero. -/
theorem zero_off : (![0, 0] : Fin 2 → Nat) = fun _ => 0 := funext fun a => by fin_cases a <;> rfl

/-- The block coordinates of the five operands at a point, decided over the 32 points: the points of `x` and the column of
    norms move with the result's row block, the points of `y` and the row of norms with its column block, and the result's
    block coordinates range over 16 × 2. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 1 :=
  (by decide +kernel : ∀ t : Fin grid0.N, _)

/-- Every pair of block coordinates is some point's. -/
theorem block_onto : ∀ (b0 : Fin 16) (b1 : Fin 2), ∃ t : Fin cfg0.N, win0_4.index t = ![b0.val, b1.val] :=
  (by decide +kernel : ∀ (b0 : Fin 16) (b1 : Fin 2), ∃ t : Fin grid0.N, win0_4.index t = ![b0.val, b1.val])

/-- The matrix row of row `p` of point `t`'s block. -/
def rowOf (t : Fin cfg0.N) (p : Fin 512) : Fin 8192 :=
  ⟨win0_4.index t (0 : Fin 2) * 512 + p.val, by
    have h := (block_indices t).2.2.2.2.2.2.2.2.1; have := p.isLt; omega⟩

/-- The matrix column of column `q` of point `t`'s block. -/
def colOf (t : Fin cfg0.N) (q : Fin 4096) : Fin 8192 :=
  ⟨win0_4.index t (1 : Fin 2) * 4096 + q.val, by
    have h := (block_indices t).2.2.2.2.2.2.2.2.2; have := q.isLt; omega⟩

/-- Entry `(p, q)` of point `t`'s result block sits at `(rowOf t p, colOf t q)` of the matrix. -/
theorem result_at (t : Fin cfg0.N) (p : Fin 512) (q : Fin 4096) :
    ((cfg0.win 4).blk t).view.emb (ix2 p q) = ix2 (rowOf t p) (colOf t q) :=
  funext fun a => Fin.ext (by
    match a with
    | ⟨0, _⟩ => show win0_4.index t (0 : Fin 2) * 512 + 1 * p.val = win0_4.index t (0 : Fin 2) * 512 + p.val; omega
    | ⟨1, _⟩ => show win0_4.index t (1 : Fin 2) * 4096 + 1 * q.val = win0_4.index t (1 : Fin 2) * 4096 + q.val; omega)

/-- The block of `x` at point `t` holds the points with the block's matrix rows. -/
theorem xblock_apply (c : Dev nD) (t : Fin cfg0.N) (p : Fin 512) (k : Fin 128) :
    iblk m c 0 t (ix2 p k) = (m ((c : Thread nD τ).loc main_arg0)) (ix2 (rowOf t p) k) := by
  refine Eq.trans ?_ (congrFun (V_main_arg0 m c) (ix2 (rowOf t p) k))
  show V m c main_arg0 (((cfg0.win 0).blk t).view.emb (ix2 p k)) = V m c main_arg0 (ix2 (rowOf t p) k)
  obtain ⟨e0, e1, -⟩ := block_indices t
  refine congrArg _ (funext fun a => Fin.ext ?_)
  match a with
  | ⟨0, _⟩ => show win0_0.index t (0 : Fin 2) * 512 + 1 * p.val = win0_4.index t (0 : Fin 2) * 512 + p.val; omega
  | ⟨1, _⟩ => show win0_0.index t (1 : Fin 2) * 128 + 1 * k.val = k.val; omega

/-- The block of `y` at point `t` holds the points with the block's matrix columns. -/
theorem yblock_apply (c : Dev nD) (t : Fin cfg0.N) (q : Fin 4096) (k : Fin 128) :
    iblk m c 1 t (ix2 q k) = (m ((c : Thread nD τ).loc main_arg1)) (ix2 (colOf t q) k) := by
  refine Eq.trans ?_ (congrFun (V_main_arg1 m c) (ix2 (colOf t q) k))
  show V m c main_arg1 (((cfg0.win 1).blk t).view.emb (ix2 q k)) = V m c main_arg1 (ix2 (colOf t q) k)
  obtain ⟨-, -, e0, e1, -⟩ := block_indices t
  refine congrArg _ (funext fun a => Fin.ext ?_)
  match a with
  | ⟨0, _⟩ => show win0_1.index t (0 : Fin 2) * 4096 + 1 * q.val = win0_4.index t (1 : Fin 2) * 4096 + q.val; omega
  | ⟨1, _⟩ => show win0_1.index t (1 : Fin 2) * 128 + 1 * k.val = k.val; omega

/-- The piece of the column of norms at point `t` holds the squared norms of the block's rows. -/
theorem colblock_apply (c : Dev nD) (t : Fin cfg0.N) (p : Fin 512) :
    iblk m c 2 t (ix2 p 0) = Cert.Rbf.sqNorm (m ((c : Thread nD τ).loc main_arg0)) (rowOf t p) := by
  refine Eq.trans ?_ ((congrFun (HostNorms.entry_normx m c) (ix2 (rowOf t p) 0)).trans (HostNorms.normCol_apply _ _ _))
  show V m c main_v2 (((cfg0.win 2).blk t).view.emb (ix2 p 0)) = V m c main_v2 (ix2 (rowOf t p) 0)
  obtain ⟨-, -, -, -, e0, e1, -⟩ := block_indices t
  refine congrArg _ (funext fun a => Fin.ext ?_)
  match a with
  | ⟨0, _⟩ => show win0_2.index t (0 : Fin 2) * 512 + 1 * p.val = win0_4.index t (0 : Fin 2) * 512 + p.val; omega
  | ⟨1, _⟩ => show win0_2.index t (1 : Fin 2) * 1 + 1 * 0 = 0; omega

/-- The piece of the row of norms at point `t` holds the squared norms of the block's columns. -/
theorem rowblock_apply (c : Dev nD) (t : Fin cfg0.N) (q : Fin 4096) :
    iblk m c 3 t (ix2 0 q) = Cert.Rbf.sqNorm (m ((c : Thread nD τ).loc main_arg1)) (colOf t q) := by
  refine Eq.trans ?_ ((congrFun (HostNorms.entry_normy m c) (ix2 0 (colOf t q))).trans (HostNorms.normRow_apply _ _ _))
  show V m c main_v6 (((cfg0.win 3).blk t).view.emb (ix2 0 q)) = V m c main_v6 (ix2 0 (colOf t q))
  obtain ⟨-, -, -, -, -, -, e0, e1, -⟩ := block_indices t
  refine congrArg _ (funext fun a => Fin.ext ?_)
  match a with
  | ⟨0, _⟩ => show win0_3.index t (0 : Fin 2) * 1 + 1 * 0 = 0; omega
  | ⟨1, _⟩ => show win0_3.index t (1 : Fin 2) * 4096 + 1 * q.val = win0_4.index t (1 : Fin 2) * 4096 + q.val; omega

/-- Entry `(p, q)` of what point `t` stores is the matrix entry at the block's row `p` and column `q`. -/
theorem point_entry (c : Dev nD) (t : Fin cfg0.N) (p : Fin 512) (q : Fin 4096) :
    k0_pay1 (F := Ideal) (iblk m c 0 t) (iblk m c 1 t) (iblk m c 2 t) (iblk m c 3 t) (ix2 p q)
      = Cert.Rbf.entry (m ((c : Thread nD τ).loc main_arg0)) (m ((c : Thread nD τ).loc main_arg1)) (rowOf t p) (colOf t q) := by
  refine (BodyEntry.stored_apply (iblk m c 0 t) (iblk m c 1 t) (iblk m c 2 t) (iblk m c 3 t) p q).trans ?_
  unfold Cert.Rbf.entry Cert.Rbf.inner
  rw [colblock_apply m c t p, rowblock_apply m c t q]
  simp only [xblock_apply m c t p, yblock_apply m c t q]

/-- WHAT POINT `t` WRITES BACK is block `t` of the Gaussian-kernel matrix of the two arguments. -/
theorem flushed_eq (c : Dev nD) (t : Fin cfg0.N) :
    (dats m 0 c).flushed 4 t
      = ((cfg0.win 4).blk t).view.read (Elt Ideal) (Cert.Rbf.rbf (m ((c : Thread nD τ).loc main_arg0)) (m ((c : Thread nD τ).loc main_arg1))) := by
  rw [Value.flushed4 m c t]
  unfold out0_4
  rw [View.canon_unit_zero zero_off]
  simp only [View.ld_unit_zero (S := S512x128) zero_off, View.ld_unit_zero (S := S4096x128) zero_off,
    View.ld_unit_zero (S := S512x1) zero_off, View.ld_unit_zero (S := S1x4096) zero_off]
  funext j
  obtain ⟨p, q, rfl⟩ : ∃ (p : Fin 512) (q : Fin 4096), j = ix2 p q := ⟨j 0, j 1, eq_ix2 j⟩
  show k0_pay1 (F := Ideal) (iblk m c 0 t) (iblk m c 1 t) (iblk m c 2 t) (iblk m c 3 t) (ix2 p q)
    = Cert.Rbf.rbf (m ((c : Thread nD τ).loc main_arg0)) (m ((c : Thread nD τ).loc main_arg1)) (((cfg0.win 4).blk t).view.emb (ix2 p q))
  rw [result_at t p q, Cert.Rbf.rbf_ix2]
  exact point_entry m c t p q

/-- An index of the matrix is in point `t`'s block iff each coordinate is in the block's range on its axis. -/
theorem mem_block (t : Fin cfg0.N) (i : S8192x8192.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v7).slice (win0_4.rect t)).set ↔ _
  rw [View.set_slice_whole, Rect.mem_set_unit]
  exact Iff.rfl

/-- The 32 blocks tile the matrix: entry `(r, s)` is in the block with coordinates `(r / 512, s / 4096)`. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 512, by omega⟩ ⟨(i 1).val / 4096, by omega⟩
  have q0 : win0_4.index t (0 : Fin 2) = (i 0).val / 512 := congrFun ht 0
  have q1 : win0_4.index t (1 : Fin 2) = (i 1).val / 4096 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- THE RESULT ARRAY after the region is the Gaussian-kernel matrix of the two arguments. -/
theorem final (c : Dev nD) :
    (dats m 0 c).arrAt 4 cfg0.N = Cert.Rbf.rbf (m ((c : Thread nD τ).loc main_arg0)) (m ((c : Thread nD τ).loc main_arg1)) :=
  (dats m 0 c).arrAt_eq_of_cover 4 (Cert.Rbf.rbf (m ((c : Thread nD τ).loc main_arg0)) (m ((c : Thread nD τ).loc main_arg1))) (fun t _ => flushed_eq m c t) covered

/-- The kernel's run: the result is the Gaussian-kernel matrix of the arguments, the arguments unchanged. -/
theorem run : θ_run defs (onTc (τ := τ) (main (F := Ideal))) ⟨m, fun _ => 0, ρ⟩ fun r => ∀ c : Dev nD,
      r.2.mem ((c : Thread nD τ).loc main_v7) = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The Gaussian (RBF) kernel matrix  K[p, q] = exp(γ' · ‖x_p − y_q‖²)  of two sets of 8192 points in 128 dimensions, with
  ‖x_p − y_q‖² expanded as (‖x_p‖² − 2 ⟨x_p, y_q⟩) + ‖y_q‖².

  The kernel computes the squared norms once on the host (a column for `x`, a row for `y`) and then, on a 16 × 2 grid,
  one 512 × 4096 block of the matrix per point: a matrix product of 512 points of `x` with 4096 points of `y` contracting
  the 128 coordinates, the two norms broadcast across the block, the scale and the exponential.  The reference forms the
  same column and row, the whole product `x · yᵀ`, and the same expression entry by entry.  On the extended reals both are
  the function `Rbf.rbf` of the two arguments (RbfSpec): the kernel by reading each block's entry `(p, q)` at its matrix
  position and tiling the matrix with the 32 blocks (BodyEntry, HostNorms, BlocksToArray), the reference by reading its
  stages at an index (RefIsRbf).  The two sides group their sums and products alike, so nothing beyond re-indexing the
  sums over the 128 coordinates is used, and the inputs' finiteness is not needed.  No operation was rewritten between the
  kernel as printed and its idealization, so that conjunct is trivial; the three frames are the generated ones.
-/
import proofs.«163347_j74474732913139_2_alg».proof.Defs
import proofs.«163347_j74474732913139_2_alg».proof.Proof.Gen.Kernel
import proofs.«163347_j74474732913139_2_alg».proof.Proof.Gen.Kernel.Skeleton
import proofs.«163347_j74474732913139_2_alg».proof.Proof.Gen.Kernel.Launch
import proofs.«163347_j74474732913139_2_alg».proof.Proof.Gen.Kernel.Points
import proofs.«163347_j74474732913139_2_alg».proof.Proof.Gen.Kernel.Frame
import proofs.«163347_j74474732913139_2_alg».proof.Proof.Gen.KernelIdeal
import proofs.«163347_j74474732913139_2_alg».proof.Proof.Gen.KernelIdeal.Skeleton
import proofs.«163347_j74474732913139_2_alg».proof.Proof.Gen.KernelIdeal.Launch
import proofs.«163347_j74474732913139_2_alg».proof.Proof.Gen.KernelIdeal.Points
import proofs.«163347_j74474732913139_2_alg».proof.Proof.Gen.KernelIdeal.Frame
import proofs.«163347_j74474732913139_2_alg».proof.Proof.Gen.ReferenceIdeal
import proofs.«163347_j74474732913139_2_alg».proof.Proof.Gen.Pre_finite_inputs
import proofs.«163347_j74474732913139_2_alg».proof.Proof.Gen.KernelIdeal.Value
import proofs.«163347_j74474732913139_2_alg».proof.Proof.Gen.ReferenceIdeal.Run
import proofs.«163347_j74474732913139_2_alg».proof.Proof.Gen.ReferenceIdeal.Read
import proofs.«163347_j74474732913139_2_alg».proof.Proof.RefIsRbf
import proofs.«163347_j74474732913139_2_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From arguments that agree, both programs end with the Gaussian-kernel matrix of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
